-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S320000 : Shape := ⟨1, ![320000]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S10000x256 .f32) (main_arg1 : FVec F S256x256 .f32) (main_arg2 : FVec F S256 .f32) (main_arg3 : FVec F S256x64 .f32) (main_arg4 : FVec F S64 .f32) (main_arg5 : IVec S320000 32) (main_arg6 : IVec S320000 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S10000x256 : Shape := ⟨2, ![10000, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S320000x256 : Shape := ⟨2, ![320000, 256]⟩
abbrev S1x256 : Shape := ⟨2, ![1, 256]⟩
abbrev S1000x256 : Shape := ⟨2, ![1000, 256]⟩
abbrev S1x64 : Shape := ⟨2, ![1, 64]⟩
abbrev S10000x64 : Shape := ⟨2, ![10000, 64]⟩
abbrev S1000x64 : Shape := ⟨2, ![1000, 64]⟩
abbrev S320000x64 : Shape := ⟨2, ![320000, 64]⟩

abbrev nBuf : Space → Nat
  | .hbm => 74
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S256x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S320000, .i32⟩
  | .hbm, ⟨6, _⟩ => ⟨S320000, .i32⟩
  | .hbm, ⟨7, _⟩ => ⟨S_, .f32⟩
  | .hbm, ⟨8, _⟩ => ⟨S320000, .f32⟩
  | .hbm, ⟨9, _⟩ => ⟨S_, .f32⟩
  | .hbm, ⟨10, _⟩ => ⟨S10000, .f32⟩
  | .hbm, ⟨11, _⟩ => ⟨S320000x1, .i32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S320000x1, .i32⟩
  | .hbm, ⟨16, _⟩ => ⟨S10000, .f32⟩
  | .hbm, ⟨17, _⟩ => ⟨S_, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000, .f32⟩
  | .hbm, ⟨22, _⟩ => ⟨S_, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x256, .f32⟩
  | .hbm, ⟨29, _⟩ => ⟨S10000x256, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x256, .f32⟩
  | .hbm, ⟨39, _⟩ => ⟨S_, .f32⟩
  | .hbm, ⟨40, _⟩ => ⟨S10000x256, .f32⟩
  | .hbm, ⟨41, _⟩ => ⟨S320000x1, .i32⟩
  | .hbm, ⟨42, _⟩ => ⟨S10000x256, .f32⟩
  | .hbm, ⟨43, _⟩ => ⟨S10000x1, .f32⟩
  | .hbm, ⟨44, _⟩ => ⟨S10000x256, .f32⟩
  | .hbm, ⟨45, _⟩ => ⟨S10000x256, .f32⟩
  | .hbm, ⟨46, _⟩ => ⟨S1x256, .f32⟩
  | .hbm, ⟨47, _⟩ => ⟨S10000x256, .f32⟩
  | .hbm, ⟨48, _⟩ => ⟨S_, .f32⟩
  | .hbm, ⟨49, _⟩ => ⟨S64, .f32⟩
  | .hbm, ⟨50, _⟩ => ⟨S1x64, .f32⟩
  | .hbm, ⟨51, _⟩ => ⟨S10000x64, .f32⟩
  | .hbm, ⟨52, _⟩ => ⟨S10000x1, .f32⟩
  | .hbm, ⟨53, _⟩ => ⟨S10000x64, .f32⟩
  | .hbm, ⟨54, _⟩ => ⟨S10000x64, .f32⟩
  | .hbm, ⟨55, _⟩ => ⟨S_, .i32⟩
  | .hbm, ⟨56, _⟩ => ⟨S320000, .i32⟩
  | .hbm, ⟨57, _⟩ => ⟨S320000, .i1⟩
  | .hbm, ⟨58, _⟩ => ⟨S_, .i32⟩
  | .hbm, ⟨59, _⟩ => ⟨S320000, .i32⟩
  | .hbm, ⟨60, _⟩ => ⟨S320000, .i32⟩
  | .hbm, ⟨61, _⟩ => ⟨S320000, .i32⟩
  | .hbm, ⟨62, _⟩ => ⟨S320000x1, .i32⟩
  | .hbm, ⟨63, _⟩ => ⟨S320000x64, .f32⟩
  | .hbm, ⟨64, _⟩ => ⟨S_, .f32⟩
  | .hbm, ⟨65, _⟩ => ⟨S10000x64, .f32⟩
  | .hbm, ⟨66, _⟩ => ⟨S320000x1, .i32⟩
  | .hbm, ⟨67, _⟩ => ⟨S10000x64, .f32⟩
  | .hbm, ⟨68, _⟩ => ⟨S10000x1, .f32⟩
  | .hbm, ⟨69, _⟩ => ⟨S10000x64, .f32⟩
  | .hbm, ⟨70, _⟩ => ⟨S10000x64, .f32⟩
  | .hbm, ⟨71, _⟩ => ⟨S1x64, .f32⟩
  | .hbm, ⟨72, _⟩ => ⟨S10000x64, .f32⟩
  | .hbm, ⟨73, _⟩ => ⟨S10000x64, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S256x64, .f32⟩
  | .local _ .vmem, ⟨9, _⟩ => ⟨S1x64, .f32⟩
  | .local _ .vmem, ⟨10, _⟩ => ⟨S1000x64, .f32⟩
  | .local _ .vmem, ⟨11, _⟩ => ⟨S1000x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  bcast_S_S64 : S_.BroadcastsInDim S64 (![] : Fin 0 → Fin S64.rank)
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  bcast_S10000x1_S10000x64_0_1 : S10000x1.BroadcastsInDim S10000x64 (![0, 1] : Fin 2 → Fin S10000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S320000x1_S320000_n_0_0_1_wf : ScatterDims.WF S10000 S320000x1 S320000 [] [0] [0] 1
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  dot_S1000x256_S256x64_S1000x64_1_0_0_1_n_n_wf : DotDims.WF S1000x256 S256x64 S1000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S10000x64.size a
  hwx1_3 : ∀ i : grid1.Coords, EltTy.bits .f32 = 32 ∨ (Rect.block (s := S10000x64) S1000x64.size (cc1_transform_3 i) (hinb1_3 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf

abbrev win0_0 : Pipeline.Window sig grid0 :=
  Pipeline.Window.ofSpec (Memref.whole main_v26) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x256 : Shape := ⟨2, ![10000, 256]⟩
abbrev S256x256 : Shape := ⟨2, ![256, 256]⟩
abbrev S256 : Shape := ⟨1, ![256]⟩
abbrev S256x64 : Shape := ⟨2, ![256, 64]⟩
abbrev S64 : Shape := ⟨1, ![64]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S320000x256 : Shape := ⟨2, ![320000, 256]⟩
abbrev S1x256 : Shape := ⟨2, ![1, 256]⟩
abbrev S10000x64 : Shape := ⟨2, ![10000, 64]⟩
abbrev S320000x64 : Shape := ⟨2, ![320000, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S256x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S320000, .i32⟩
  | .hbm, ⟨6, _⟩ => ⟨S320000, .i32⟩
  | .hbm, ⟨7, _⟩ => ⟨S_, .f32⟩
  | .hbm, ⟨8, _⟩ => ⟨S320000, .f32⟩
  | .hbm, ⟨9, _⟩ => ⟨S_, .f32⟩
  | .hbm, ⟨10, _⟩ => ⟨S10000, .f32⟩
  | .hbm, ⟨11, _⟩ => ⟨S320000x1, .i32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S320000x1, .i32⟩
  | .hbm, ⟨16, _⟩ => ⟨S10000, .f32⟩
  | .hbm, ⟨17, _⟩ => ⟨S_, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000, .f32⟩
  | .hbm, ⟨22, _⟩ => ⟨S_, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x256, .f32⟩
  | .hbm, ⟨29, _⟩ => ⟨S10000x256, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x256, .f32⟩
  | .hbm, ⟨39, _⟩ => ⟨S_, .f32⟩
  | .hbm, ⟨40, _⟩ => ⟨S10000x256, .f32⟩
  | .hbm, ⟨41, _⟩ => ⟨S320000x1, .i32⟩
  | .hbm, ⟨42, _⟩ => ⟨S10000x256, .f32⟩
  | .hbm, ⟨43, _⟩ => ⟨S10000x1, .f32⟩
  | .hbm, ⟨44, _⟩ => ⟨S10000x256, .f32⟩
  | .hbm, ⟨45, _⟩ => ⟨S10000x256, .f32⟩
  | .hbm, ⟨46, _⟩ => ⟨S10000x256, .f32⟩
  | .hbm, ⟨47, _⟩ => ⟨S1x256, .f32⟩
  | .hbm, ⟨48, _⟩ => ⟨S10000x256, .f32⟩
  | .hbm, ⟨49, _⟩ => ⟨S10000x256, .f32⟩
  | .hbm, ⟨50, _⟩ => ⟨S_, .f32⟩
  | .hbm, ⟨51, _⟩ => ⟨S10000x256, .f32⟩
  | .hbm, ⟨52, _⟩ => ⟨S10000x256, .f32⟩
  | .hbm, ⟨53, _⟩ => ⟨S10000x64, .f32⟩
  | .hbm, ⟨54, _⟩ => ⟨S10000x1, .f32⟩
  | .hbm, ⟨55, _⟩ => ⟨S10000x64, .f32⟩
  | .hbm, ⟨56, _⟩ => ⟨S10000x64, .f32⟩
  | .hbm, ⟨57, _⟩ => ⟨S_, .i32⟩
  | .hbm, ⟨58, _⟩ => ⟨S320000, .i32⟩
  | .hbm, ⟨59, _⟩ => ⟨S320000, .i1⟩
  | .hbm, ⟨60, _⟩ => ⟨S_, .i32⟩
  | .hbm, ⟨61, _⟩ => ⟨S320000, .i32⟩
  | .hbm, ⟨62, _⟩ => ⟨S320000, .i32⟩
  | .hbm, ⟨63, _⟩ => ⟨S320000, .i32⟩
  | .hbm, ⟨64, _⟩ => ⟨S320000x1, .i32⟩
  | .hbm, ⟨65, _⟩ => ⟨S320000x64, .f32⟩
  | .hbm, ⟨66, _⟩ => ⟨S_, .f32⟩
  | .hbm, ⟨67, _⟩ => ⟨S10000x64, .f32⟩
  | .hbm, ⟨68, _⟩ => ⟨S320000x1, .i32⟩
  | .hbm, ⟨69, _⟩ => ⟨S10000x64, .f32⟩
  | .hbm, ⟨70, _⟩ => ⟨S10000x1, .f32⟩
  | .hbm, ⟨71, _⟩ => ⟨S10000x64, .f32⟩
  | .hbm, ⟨72, _⟩ => ⟨S10000x64, .f32⟩
  | .hbm, ⟨73, _⟩ => ⟨S1x64, .f32⟩
  | .hbm, ⟨74, _⟩ => ⟨S10000x64, .f32⟩
  | .hbm, ⟨75, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S10000x1_S10000x64_0_1 : S10000x1.BroadcastsInDim S10000x64 (![0, 1] : Fin 2 → Fin S10000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S320000x1_S320000_n_0_0_1_wf : ScatterDims.WF S10000 S320000x1 S320000 [] [0] [0] 1
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []
  dot_S10000x256_S256x64_S10000x64_1_0_0_1_n_n_wf : DotDims.WF S10000x256 S256x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf

class Facts : Prop extends Facts₀ where

variable [Facts]
-- ==== Proof.KernelRun.lean ====
/-
  The kernel program's run with its result array NAMED.

  @main is nine segments: five stretches of host operations, the first dense layer's region, a short stretch, the
  second layer's region, and the closing stretch.  Every weakly fair execution runs them in order and terminates, and
  at the end every buffer the program leaves unscoped holds what the fold of the segments gives it (`W9`: each host
  stretch applies its operations, each region leaves its arrays at what its write-backs made of them).  Read at the
  result buffer this names the result; read at an argument it is the argument as launched.
-/
import proofs.«167305_j1382979470185_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the segments' fold `W9` read there, and
    the seven argument arrays as launched. -/
theorem run : θ_run defs (onTc (τ := τ) (main (F := F))) ⟨m, fun _ => 0, ρ⟩ (fun r => ∀ c : Dev nD,
      r.2.mem ((c.tc : Thread nD τ).loc main_v50) = W9 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v50 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Named

end
-- ==== Proof.HostWalk.lean ====
/-
  The host operations of the kernel program, stretch by stretch, against the reference's stages.

  Around its two kernel regions the kernel program runs the same host operations as the reference: the node degrees by
  scatter-add of ones, their clamp at one and reciprocal square roots (the two normalisers), the scaled features
  gathered along the edge sources and summed into the edge destinations, and after the second layer the same
  aggregation again plus the bias.  Each stretch is read from ANY buffer contents `V`: what it leaves in a buffer a
  later stretch reads is the reference's stage of that name, given that `V` holds the reference's stages in the
  buffers the stretch reads; a buffer a stretch does not write is carried through it.  Chained from the launch this
  gives the normalisers and the first layer's operand as region 0 finds them.
-/
import proofs.«167305_j1382979470185_1_alg».proof.Proof.Gen.KernelIdeal.Frame
import proofs.«167305_j1382979470185_1_alg».proof.Proof.Gen.ReferenceIdeal.Read

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

/-! ## What each stretch of host operations writes, so that every other buffer is carried through it -/

abbrev wr0 : List (Ref sig .tc) := [main_cst, main_v0, main_cst_0, main_v1, main_v2, main_v3, main_cst_1, main_v4, main_v5, main_v6, main_cst_2]
abbrev wr0_1 : List (Ref sig .tc) := [main_call0_v0, main_call0_v1, main_v7]
abbrev wr0_2 : List (Ref sig .tc) := [main_v8, main_cst_3]
abbrev wr0_3 : List (Ref sig .tc) := [main_call1_v0, main_call1_v1, main_v9]
abbrev wr0_4 : List (Ref sig .tc) := [main_v10, main_v11, main_v12, main_v13, main_c, main_v14, main_v15, main_c_4, main_v16, main_v17, main_v18, main_v19, main_v20, main_cst_5, main_v21, main_v22, main_v23, main_v24, main_v25, main_v26, main_v27]
abbrev wr1 : List (Ref sig .tc) := [main_cst_6, main_v29, main_v30]

theorem wr0_sub : (hostOps0 (F := Ideal)).Forall fun op => op.writes ⊆ (wr0.map (Proc.devRef (τ := τ) .tc)).toFinset := by
  simp only [hostOps0, List.Forall, nullary_writes, unary_writes, binary_writes, ternary_writes, reshape_writes]
  repeat' apply And.intro
  all_goals exact Finset.singleton_subset_iff.mpr (List.mem_toFinset.mpr (List.mem_map.mpr ⟨_, by decide, rfl⟩))
theorem wr0_1_sub : (hostOps0_1 (F := Ideal)).Forall fun op => op.writes ⊆ (wr0_1.map (Proc.devRef (τ := τ) .tc)).toFinset := by
  simp only [hostOps0_1, List.Forall, nullary_writes, unary_writes, binary_writes, ternary_writes, reshape_writes]
  repeat' apply And.intro
  all_goals exact Finset.singleton_subset_iff.mpr (List.mem_toFinset.mpr (List.mem_map.mpr ⟨_, by decide, rfl⟩))
theorem wr0_2_sub : (hostOps0_2 (F := Ideal)).Forall fun op => op.writes ⊆ (wr0_2.map (Proc.devRef (τ := τ) .tc)).toFinset := by
  simp only [hostOps0_2, List.Forall, nullary_writes, unary_writes, binary_writes, ternary_writes, reshape_writes]
  repeat' apply And.intro
  all_goals exact Finset.singleton_subset_iff.mpr (List.mem_toFinset.mpr (List.mem_map.mpr ⟨_, by decide, rfl⟩))
theorem wr0_3_sub : (hostOps0_3 (F := Ideal)).Forall fun op => op.writes ⊆ (wr0_3.map (Proc.devRef (τ := τ) .tc)).toFinset := by
  simp only [hostOps0_3, List.Forall, nullary_writes, unary_writes, binary_writes, ternary_writes, reshape_writes]
  repeat' apply And.intro
  all_goals exact Finset.singleton_subset_iff.mpr (List.mem_toFinset.mpr (List.mem_map.mpr ⟨_, by decide, rfl⟩))
theorem wr0_4_sub : (hostOps0_4 (F := Ideal)).Forall fun op => op.writes ⊆ (wr0_4.map (Proc.devRef (τ := τ) .tc)).toFinset := by
  simp only [hostOps0_4, List.Forall, nullary_writes, unary_writes, binary_writes, ternary_writes, reshape_writes]
  repeat' apply And.intro
  all_goals exact Finset.singleton_subset_iff.mpr (List.mem_toFinset.mpr (List.mem_map.mpr ⟨_, by decide, rfl⟩))
theorem wr1_sub : (hostOps1 (F := Ideal)).Forall fun op => op.writes ⊆ (wr1.map (Proc.devRef (τ := τ) .tc)).toFinset := by
  simp only [hostOps1, List.Forall, nullary_writes, unary_writes, binary_writes, ternary_writes, reshape_writes]
  repeat' apply And.intro
  all_goals exact Finset.singleton_subset_iff.mpr (List.mem_toFinset.mpr (List.mem_map.mpr ⟨_, by decide, rfl⟩))

variable (m : (ℓ : Loc nD τ sig) → Buf (Elt Ideal) ℓ) (ρ : Dev nD → PrngReg) (c : Dev nD)

theorem keep0 {r : Ref sig .tc} (hr : r ∉ wr0) : W1 m ρ c (Proc.devRef .tc r) = W0 m ρ c (Proc.devRef .tc r) :=
  after_of_writes_sub _ _ wr0_sub hr
theorem keep0_1 {r : Ref sig .tc} (hr : r ∉ wr0_1) : W2 m ρ c (Proc.devRef .tc r) = W1 m ρ c (Proc.devRef .tc r) :=
  after_of_writes_sub _ _ wr0_1_sub hr
theorem keep0_2 {r : Ref sig .tc} (hr : r ∉ wr0_2) : W3 m ρ c (Proc.devRef .tc r) = W2 m ρ c (Proc.devRef .tc r) :=
  after_of_writes_sub _ _ wr0_2_sub hr
theorem keep0_3 {r : Ref sig .tc} (hr : r ∉ wr0_3) : W4 m ρ c (Proc.devRef .tc r) = W3 m ρ c (Proc.devRef .tc r) :=
  after_of_writes_sub _ _ wr0_3_sub hr
theorem keep0_4 {r : Ref sig .tc} (hr : r ∉ wr0_4) : W5 m ρ c (Proc.devRef .tc r) = W4 m ρ c (Proc.devRef .tc r) :=
  after_of_writes_sub _ _ wr0_4_sub hr
theorem keep1 {r : Ref sig .tc} (hr : r ∉ wr1) : W7 m ρ c (Proc.devRef .tc r) = W6 m ρ c (Proc.devRef .tc r) :=
  after_of_writes_sub _ _ wr1_sub hr

/-- A buffer no stretch before the first region writes holds its launch contents when the region is entered. -/
theorem W4_launch {r : Ref sig .tc} (h0 : r ∉ wr0) (h1 : r ∉ wr0_1) (h2 : r ∉ wr0_2) (h3 : r ∉ wr0_3) :
    W4 m ρ c (Proc.devRef .tc r) = m ((c.tc : Thread nD τ).loc r) :=
  (keep0_3 m ρ c h3).trans ((keep0_2 m ρ c h2).trans ((keep0_1 m ρ c h1).trans (keep0 m ρ c h0)))
theorem W5_launch {r : Ref sig .tc} (h0 : r ∉ wr0) (h1 : r ∉ wr0_1) (h2 : r ∉ wr0_2) (h3 : r ∉ wr0_3) (h4 : r ∉ wr0_4) :
    W5 m ρ c (Proc.devRef .tc r) = m ((c.tc : Thread nD τ).loc r) :=
  (keep0_4 m ρ c h4).trans (W4_launch m ρ c h0 h1 h2 h3)

/-! ## Each stretch of host operations, from ANY contents `V`: what it leaves in the buffers the later stretches read,
    given what `V` holds in the buffers it reads — stated against the reference's own stages -/

section Stages

variable (V : Valuation τ sig (Elt Ideal))

/-- The out-degree of every node: ones scattered onto zeros along the edge sources. -/
theorem st0_v3 (a5 : (⟨S320000, .i32⟩ : BufTy).Contents (Elt Ideal)) (h5 : V (Proc.devRef .tc main_arg5) = a5) :
    after hostOps0 V (Proc.devRef .tc main_v3) = Cert.ReferenceIdeal.Read.val_main_v3 (F := Ideal) a5 := by
  after_results_simp
  rw [h5]
  rfl
/-- The in-degree of every node: ones scattered onto zeros along the edge destinations. -/
theorem st0_v6 (a6 : (⟨S320000, .i32⟩ : BufTy).Contents (Elt Ideal)) (h6 : V (Proc.devRef .tc main_arg6) = a6) :
    after hostOps0 V (Proc.devRef .tc main_v6) = Cert.ReferenceIdeal.Read.val_main_v6 (F := Ideal) a6 := by
  after_results_simp
  rw [h6]
  rfl
theorem st0_cst_2 : after hostOps0 V (Proc.devRef .tc main_cst_2) = Cert.ReferenceIdeal.Read.val_main_cst_2 (F := Ideal) := by
  after_results_simp
  rfl
/-- The out-degree clamped below at one. -/
theorem st0_1_v7 (a5 : (⟨S320000, .i32⟩ : BufTy).Contents (Elt Ideal))
    (hc : V (Proc.devRef .tc main_cst_2) = Cert.ReferenceIdeal.Read.val_main_cst_2 (F := Ideal))
    (h3 : V (Proc.devRef .tc main_v3) = Cert.ReferenceIdeal.Read.val_main_v3 (F := Ideal) a5) :
    after hostOps0_1 V (Proc.devRef .tc main_v7) = Cert.ReferenceIdeal.Read.val_main_v7 (F := Ideal) a5 := by
  after_results_simp
  rw [hc, h3]
  rfl
/-- The source normaliser: the reciprocal square root of the clamped out-degree. -/
theorem st0_2_v8 (a5 : (⟨S320000, .i32⟩ : BufTy).Contents (Elt Ideal))
    (h7 : V (Proc.devRef .tc main_v7) = Cert.ReferenceIdeal.Read.val_main_v7 (F := Ideal) a5) :
    after hostOps0_2 V (Proc.devRef .tc main_v8) = Cert.ReferenceIdeal.Read.val_main_v8 (F := Ideal) a5 := by
  after_results_simp
  rw [h7]
  rfl
theorem st0_2_cst_3 : after hostOps0_2 V (Proc.devRef .tc main_cst_3) = Cert.ReferenceIdeal.Read.val_main_cst_3 (F := Ideal) := by
  after_results_simp
  rfl
/-- The in-degree clamped below at one. -/
theorem st0_3_v9 (a6 : (⟨S320000, .i32⟩ : BufTy).Contents (Elt Ideal))
    (hc : V (Proc.devRef .tc main_cst_3) = Cert.ReferenceIdeal.Read.val_main_cst_3 (F := Ideal))
    (h6 : V (Proc.devRef .tc main_v6) = Cert.ReferenceIdeal.Read.val_main_v6 (F := Ideal) a6) :
    after hostOps0_3 V (Proc.devRef .tc main_v9) = Cert.ReferenceIdeal.Read.val_main_v9 (F := Ideal) a6 := by
  after_results_simp
  rw [hc, h6]
  rfl
/-- The destination normaliser: the reciprocal square root of the clamped in-degree. -/
theorem st0_4_v10 (a6 : (⟨S320000, .i32⟩ : BufTy).Contents (Elt Ideal))
    (h9 : V (Proc.devRef .tc main_v9) = Cert.ReferenceIdeal.Read.val_main_v9 (F := Ideal) a6) :
    after hostOps0_4 V (Proc.devRef .tc main_v10) = Cert.ReferenceIdeal.Read.val_main_v10 (F := Ideal) a6 := by
  after_results_simp
  rw [h9]
  rfl
/-- The first layer's operand: the features scaled by the source normaliser, gathered along the edge sources,
    summed into the edge destinations, scaled by the destination normaliser. -/
theorem st0_4_v26 (a0 : (⟨S10000x256, .f32⟩ : BufTy).Contents (Elt Ideal)) (a5 a6 : (⟨S320000, .i32⟩ : BufTy).Contents (Elt Ideal))
    (h0 : V (Proc.devRef .tc main_arg0) = a0) (h5 : V (Proc.devRef .tc main_arg5) = a5) (h6 : V (Proc.devRef .tc main_arg6) = a6)
    (h8 : V (Proc.devRef .tc main_v8) = Cert.ReferenceIdeal.Read.val_main_v8 (F := Ideal) a5)
    (h9 : V (Proc.devRef .tc main_v9) = Cert.ReferenceIdeal.Read.val_main_v9 (F := Ideal) a6) :
    after hostOps0_4 V (Proc.devRef .tc main_v26) = Cert.ReferenceIdeal.Read.val_main_v26 (F := Ideal) a0 a5 a6 := by
  after_results_simp
  rw [h0, h5, h6, h8, h9]
  rfl

end Stages

section Stages2

variable (V : Valuation τ sig (Elt Ideal))

open Idealize.ShloMosaic.ValueIdx in
/-- The bias row region 0 is entered with: `b1` recast [1,256]. -/
theorem st0_4_v27 (a2 : (⟨S256, .f32⟩ : BufTy).Contents (Elt Ideal)) (h2 : V (Proc.devRef .tc main_arg2) = a2) (q : Fin 256) :
    (after hostOps0_4 V (Proc.devRef .tc main_v27) : S1x256.Idx → EReal) (ix2 (0 : Fin 1) q) = a2 (ix1 q) := by
  after_results_simp
  rw [h2]
  exact shapeCast_apply _ shapeCasts_S256_S1x256 (ix2 (0 : Fin 1) q) (ix1 q) (by
    rw [Shape.rowMajor_val_one, Shape.rowMajor_val_two]; show q.val = 0 * 256 + q.val; omega)

open Idealize.ShloMosaic.ValueIdx in
/-- The bias row region 1 is entered with: zeros. -/
theorem st1_v30 (q : Fin 64) :
    (after hostOps1 V (Proc.devRef .tc main_v30) : S1x64.Idx → EReal) (ix2 (0 : Fin 1) q) = (0 : EReal) := by
  after_results_simp
  refine (shapeCast_apply _ shapeCasts_S64_S1x64 (ix2 (0 : Fin 1) q) (ix1 q) (by
    rw [Shape.rowMajor_val_one, Shape.rowMajor_val_two]; show q.val = 0 * 64 + q.val; omega)).trans ?_
  refine (broadcastInDim_apply _ bcast_S_S64 _ (ix1 q) (fun a => a.elim0) (fun a => a.elim0)).trans ?_
  exact Ideal.ofBits_zero_f32

/-- The closing stretch: scale by the source normaliser, gather along the edge sources, sum into the edge
    destinations, scale by the destination normaliser, add `b2` — the reference's own last stages, applied to
    whatever the second layer left. -/
theorem st2_v50 (a0 : (⟨S10000x256, .f32⟩ : BufTy).Contents (Elt Ideal)) (a1 : (⟨S256x256, .f32⟩ : BufTy).Contents (Elt Ideal))
    (a2 : (⟨S256, .f32⟩ : BufTy).Contents (Elt Ideal)) (a3 : (⟨S256x64, .f32⟩ : BufTy).Contents (Elt Ideal))
    (a4 : (⟨S64, .f32⟩ : BufTy).Contents (Elt Ideal)) (a5 a6 : (⟨S320000, .i32⟩ : BufTy).Contents (Elt Ideal))
    (h31 : V (Proc.devRef .tc main_v31) = Cert.ReferenceIdeal.Read.val_main_v32 (F := Ideal) a0 a1 a2 a3 a5 a6)
    (h8 : V (Proc.devRef .tc main_v8) = Cert.ReferenceIdeal.Read.val_main_v8 (F := Ideal) a5)
    (h10 : V (Proc.devRef .tc main_v10) = Cert.ReferenceIdeal.Read.val_main_v10 (F := Ideal) a6)
    (h4 : V (Proc.devRef .tc main_arg4) = a4) (h5 : V (Proc.devRef .tc main_arg5) = a5) (h6 : V (Proc.devRef .tc main_arg6) = a6) :
    after hostOps2 V (Proc.devRef .tc main_v50) = Cert.ReferenceIdeal.Read.val_main_v51 (F := Ideal) a0 a1 a2 a3 a4 a5 a6 := by
  after_results_simp
  rw [h31, h8, h10, h4, h5, h6]
  rfl

end Stages2

/-! ## The stretches in order, from the launch: the normalisers and the first layer's operand as the region finds them -/

theorem W1_v3 : W1 m ρ c (Proc.devRef .tc main_v3) = Cert.ReferenceIdeal.Read.val_main_v3 (F := Ideal) (m ((c.tc : Thread nD τ).loc main_arg5)) :=
  st0_v3 (W0 m ρ c) _ rfl
theorem W1_v6 : W1 m ρ c (Proc.devRef .tc main_v6) = Cert.ReferenceIdeal.Read.val_main_v6 (F := Ideal) (m ((c.tc : Thread nD τ).loc main_arg6)) :=
  st0_v6 (W0 m ρ c) _ rfl
theorem W1_cst_2 : W1 m ρ c (Proc.devRef .tc main_cst_2) = Cert.ReferenceIdeal.Read.val_main_cst_2 (F := Ideal) :=
  st0_cst_2 (W0 m ρ c)
theorem W2_v7 : W2 m ρ c (Proc.devRef .tc main_v7) = Cert.ReferenceIdeal.Read.val_main_v7 (F := Ideal) (m ((c.tc : Thread nD τ).loc main_arg5)) :=
  st0_1_v7 (W1 m ρ c) _ (W1_cst_2 m ρ c) (W1_v3 m ρ c)
theorem W3_v8 : W3 m ρ c (Proc.devRef .tc main_v8) = Cert.ReferenceIdeal.Read.val_main_v8 (F := Ideal) (m ((c.tc : Thread nD τ).loc main_arg5)) :=
  st0_2_v8 (W2 m ρ c) _ (W2_v7 m ρ c)
theorem W3_cst_3 : W3 m ρ c (Proc.devRef .tc main_cst_3) = Cert.ReferenceIdeal.Read.val_main_cst_3 (F := Ideal) :=
  st0_2_cst_3 (W2 m ρ c)
theorem W3_v6 : W3 m ρ c (Proc.devRef .tc main_v6) = Cert.ReferenceIdeal.Read.val_main_v6 (F := Ideal) (m ((c.tc : Thread nD τ).loc main_arg6)) :=
  (keep0_2 m ρ c (by decide)).trans ((keep0_1 m ρ c (by decide)).trans (W1_v6 m ρ c))
theorem W4_v9 : W4 m ρ c (Proc.devRef .tc main_v9) = Cert.ReferenceIdeal.Read.val_main_v9 (F := Ideal) (m ((c.tc : Thread nD τ).loc main_arg6)) :=
  st0_3_v9 (W3 m ρ c) _ (W3_cst_3 m ρ c) (W3_v6 m ρ c)
theorem W4_v8 : W4 m ρ c (Proc.devRef .tc main_v8) = Cert.ReferenceIdeal.Read.val_main_v8 (F := Ideal) (m ((c.tc : Thread nD τ).loc main_arg5)) :=
  (keep0_3 m ρ c (by decide)).trans (W3_v8 m ρ c)
theorem W5_v8 : W5 m ρ c (Proc.devRef .tc main_v8) = Cert.ReferenceIdeal.Read.val_main_v8 (F := Ideal) (m ((c.tc : Thread nD τ).loc main_arg5)) :=
  (keep0_4 m ρ c (by decide)).trans (W4_v8 m ρ c)
theorem W5_v10 : W5 m ρ c (Proc.devRef .tc main_v10) = Cert.ReferenceIdeal.Read.val_main_v10 (F := Ideal) (m ((c.tc : Thread nD τ).loc main_arg6)) :=
  st0_4_v10 (W4 m ρ c) _ (W4_v9 m ρ c)
theorem W5_v26 : W5 m ρ c (Proc.devRef .tc main_v26) = Cert.ReferenceIdeal.Read.val_main_v26 (F := Ideal) (m ((c.tc : Thread nD τ).loc main_arg0)) (m ((c.tc : Thread nD τ).loc main_arg5)) (m ((c.tc : Thread nD τ).loc main_arg6)) :=
  st0_4_v26 (W4 m ρ c) _ _ _
    (W4_launch m ρ c (by decide) (by decide) (by decide) (by decide))
    (W4_launch m ρ c (by decide) (by decide) (by decide) (by decide))
    (W4_launch m ρ c (by decide) (by decide) (by decide) (by decide))
    (W4_v8 m ρ c) (W4_v9 m ρ c)
open Idealize.ShloMosaic.ValueIdx in
theorem W5_v27_apply (q : Fin 256) :
    (W5 m ρ c (Proc.devRef .tc main_v27) : S1x256.Idx → EReal) (ix2 (0 : Fin 1) q) = ((m ((c.tc : Thread nD τ).loc main_arg2)) : S256.Idx → EReal) (ix1 q) :=
  st0_4_v27 (W4 m ρ c) _ (W4_launch m ρ c (by decide) (by decide) (by decide) (by decide)) q

end Cert.KernelIdeal.Walk

end
-- ==== Proof.DensePay.lean ====
/-
  The two dense layers' block payloads read at an index, over the extended reals.

  A block of the first layer is `max (x · W + b) 0`: at row `p` and column `q` of the block it is the sum over
  `k` of `x[p, k] * W[k, q]`, plus the bias row's entry `b[0, q]`, clamped below at zero.  A block of the second
  layer is `x · W + b` with no clamp.  `layer1` and `layer2` are the same two formulas over the whole
  [10000, ·] arrays, and a block whose rows are a stretch of an array's rows is that stretch of the layer's rows.  Rounding the operands to bf16 on the way into the product changes nothing
  at this instance (a change of format is the identity), and a product accumulated onto the zero splat is the
  plain contraction; the contraction's one axis is re-indexed by `Fin 256`.
-/
import proofs.«167305_j1382979470185_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx

/-- The first layer's contraction: [1000,256] × [256,256] over the shared axis. -/
abbrev D0 := dot_S1000x256_S256x256_S1000x256_1_0_0_1_n_n
/-- The second layer's contraction: [1000,256] × [256,64] over the shared axis. -/
abbrev D1 := dot_S1000x256_S256x64_S1000x64_1_0_0_1_n_n

/-! ## Where the first contraction reads its operands -/

theorem D0_l0 (i : S1000x256.Idx) (q : D0.contr.Idx) : (D0.lhsIdx i q 0).val = (i 0).val := by
  unfold DotDims.lhsIdx
  rw [dif_neg (show ¬(0 : Fin S1000x256.rank) ∈ D0.lhsBatch by decide), dif_pos (show (0 : Fin S1000x256.rank) ∈ D0.lhsNonContracting by decide)]
  rfl
theorem D0_l1 (i : S1000x256.Idx) (q : D0.contr.Idx) : (D0.lhsIdx i q 1).val = (q ⟨0, by decide⟩).val :=
  D0.lhsIdx_val_of_single rfl i q
theorem D0_r0 (i : S1000x256.Idx) (q : D0.contr.Idx) : (D0.rhsIdx i q 0).val = (q ⟨0, by decide⟩).val :=
  D0.rhsIdx_val_of_single rfl i q
theorem D0_r1 (i : S1000x256.Idx) (q : D0.contr.Idx) : (D0.rhsIdx i q 1).val = (i 1).val := by
  unfold DotDims.rhsIdx
  rw [dif_neg (show ¬(1 : Fin S256x256.rank) ∈ D0.rhsBatch by decide), dif_pos (show (1 : Fin S256x256.rank) ∈ D0.rhsNonContracting by decide)]
  rfl

/-! ## Where the second contraction reads its operands -/

theorem D1_l0 (i : S1000x64.Idx) (q : D1.contr.Idx) : (D1.lhsIdx i q 0).val = (i 0).val := by
  unfold DotDims.lhsIdx
  rw [dif_neg (show ¬(0 : Fin S1000x256.rank) ∈ D1.lhsBatch by decide), dif_pos (show (0 : Fin S1000x256.rank) ∈ D1.lhsNonContracting by decide)]
  rfl
theorem D1_l1 (i : S1000x64.Idx) (q : D1.contr.Idx) : (D1.lhsIdx i q 1).val = (q ⟨0, by decide⟩).val :=
  D1.lhsIdx_val_of_single rfl i q
theorem D1_r0 (i : S1000x64.Idx) (q : D1.contr.Idx) : (D1.rhsIdx i q 0).val = (q ⟨0, by decide⟩).val :=
  D1.rhsIdx_val_of_single rfl i q
theorem D1_r1 (i : S1000x64.Idx) (q : D1.contr.Idx) : (D1.rhsIdx i q 1).val = (i 1).val := by
  unfold DotDims.rhsIdx
  rw [dif_neg (show ¬(1 : Fin S256x64.rank) ∈ D1.rhsBatch by decide), dif_pos (show (1 : Fin S256x64.rank) ∈ D1.rhsNonContracting by decide)]
  rfl

/-! ## The payloads at an index -/

/-- Entry `(p, q)` of a first-layer block: `max (∑ₖ x[p,k] · W[k,q] + b[0,q]) 0`. -/
theorem pay0_apply (x0 : Vec Ideal S1000x256 .f32) (x1 : Vec Ideal S256x256 .f32) (x2 : Vec Ideal S1x256 .f32) (p : Fin 1000) (q : Fin 256) :
    k0_pay1 (F := Ideal) x0 x1 x2 (ix2 p q) = max ((∑ k : Fin 256, x0 (ix2 p k) * x1 (ix2 k q)) + x2 (ix2 0 q)) 0 := by
  unfold k0_pay1
  simp only [shapeCast_self]
  rw [maximumf_apply, addf_apply, broadcast_apply, Ideal.ofBits_def, Ideal.ofBits_zero_f32,
    broadcastTo_apply x2 broadcasts_S1x256_S1000x256 (ix2 p q) (ix2 0 q) (fun a => by
      match a with
      | ⟨0, _⟩ => show 0 = if (1 : Nat) = 1 then 0 else _; rw [if_pos rfl]
      | ⟨1, _⟩ => show q.val = if (256 : Nat) = 1 then 0 else q.val; rw [if_neg (by decide)])]
  refine congrArg (fun s => max (s + x2 (ix2 0 q)) 0) ?_
  refine (Ideal.matmul_constant_zero_apply D0 none _ _ (ix2 p q)).trans ?_
  rw [← Equiv.sum_comp (contrEquiv1 D0 256 rfl rfl).symm]
  refine Finset.sum_congr rfl fun k _ => ?_
  have hk := contrEquiv1_symm_val D0 256 rfl rfl k
  have el : D0.lhsIdx (ix2 p q) ((contrEquiv1 D0 256 rfl rfl).symm k) = ix2 p k := funext fun a => Fin.ext (by
    match a with
    | ⟨0, _⟩ => exact D0_l0 _ _
    | ⟨1, _⟩ => exact (D0_l1 _ _).trans hk)
  have er : D0.rhsIdx (ix2 p q) ((contrEquiv1 D0 256 rfl rfl).symm k) = ix2 k q := funext fun a => Fin.ext (by
    match a with
    | ⟨0, _⟩ => exact (D0_r0 _ _).trans hk
    | ⟨1, _⟩ => exact D0_r1 _ _)
  rw [el, er]
  rfl

/-- Entry `(p, q)` of a second-layer block: `∑ₖ x[p,k] · W[k,q] + b[0,q]`. -/
theorem pay1_apply (x0 : Vec Ideal S1000x256 .f32) (x1 : Vec Ideal S256x64 .f32) (x2 : Vec Ideal S1x64 .f32) (p : Fin 1000) (q : Fin 64) :
    k1_pay1 (F := Ideal) x0 x1 x2 (ix2 p q) = (∑ k : Fin 256, x0 (ix2 p k) * x1 (ix2 k q)) + x2 (ix2 0 q) := by
  unfold k1_pay1
  simp only [shapeCast_self]
  rw [addf_apply,
    broadcastTo_apply x2 broadcasts_S1x64_S1000x64 (ix2 p q) (ix2 0 q) (fun a => by
      match a with
      | ⟨0, _⟩ => show 0 = if (1 : Nat) = 1 then 0 else _; rw [if_pos rfl]
      | ⟨1, _⟩ => show q.val = if (64 : Nat) = 1 then 0 else q.val; rw [if_neg (by decide)])]
  refine congrArg (fun s => s + x2 (ix2 0 q)) ?_
  refine (Ideal.matmul_constant_zero_apply D1 none _ _ (ix2 p q)).trans ?_
  rw [← Equiv.sum_comp (contrEquiv1 D1 256 rfl rfl).symm]
  refine Finset.sum_congr rfl fun k _ => ?_
  have hk := contrEquiv1_symm_val D1 256 rfl rfl k
  have el : D1.lhsIdx (ix2 p q) ((contrEquiv1 D1 256 rfl rfl).symm k) = ix2 p k := funext fun a => Fin.ext (by
    match a with
    | ⟨0, _⟩ => exact D1_l0 _ _
    | ⟨1, _⟩ => exact (D1_l1 _ _).trans hk)
  have er : D1.rhsIdx (ix2 p q) ((contrEquiv1 D1 256 rfl rfl).symm k) = ix2 k q := funext fun a => Fin.ext (by
    match a with
    | ⟨0, _⟩ => exact (D1_r0 _ _).trans hk
    | ⟨1, _⟩ => exact D1_r1 _ _)
  rw [el, er]
  rfl

/-! ## The layers over whole arrays, and a block as rows of a layer -/

/-- The first layer over whole arrays: `max (h · W + b) 0`, the bias a row. -/
def layer1 (h : S10000x256.Idx → EReal) (w : S256x256.Idx → EReal) (b : S1x256.Idx → EReal) : S10000x256.Idx → EReal :=
  fun i => max ((∑ k : Fin 256, h (ix2 (⟨(i 0).val, (i 0).isLt⟩ : Fin 10000) k) * w (ix2 k (⟨(i 1).val, (i 1).isLt⟩ : Fin 256))) + b (ix2 (0 : Fin 1) (⟨(i 1).val, (i 1).isLt⟩ : Fin 256))) 0

/-- The second layer over whole arrays: `y · W + b`, the bias a row. -/
def layer2 (y : S10000x256.Idx → EReal) (w : S256x64.Idx → EReal) (b : S1x64.Idx → EReal) : S10000x64.Idx → EReal :=
  fun i => (∑ k : Fin 256, y (ix2 (⟨(i 0).val, (i 0).isLt⟩ : Fin 10000) k) * w (ix2 k (⟨(i 1).val, (i 1).isLt⟩ : Fin 64))) + b (ix2 (0 : Fin 1) (⟨(i 1).val, (i 1).isLt⟩ : Fin 64))

/-- A first-layer block whose rows are rows `r … r + 999` of `h` is those rows of `layer1`. -/
theorem pay0_block (x0 : Vec Ideal S1000x256 .f32) (x1 : Vec Ideal S256x256 .f32) (x2 : Vec Ideal S1x256 .f32)
    (h : S10000x256.Idx → EReal) (w : S256x256.Idx → EReal) (b : S1x256.Idx → EReal) (r : Nat)
    (hx0 : ∀ (p : Fin 1000) (k : Fin 256) (hp : r + p.val < 10000), x0 (ix2 p k) = h (ix2 (⟨r + p.val, hp⟩ : Fin 10000) k))
    (hx1 : x1 = w) (hx2 : x2 = b)
    (y : S1000x256.Idx) (i : S10000x256.Idx) (hi0 : (i 0).val = r + (y 0).val) (hi1 : (i 1).val = (y 1).val) :
    k0_pay1 (F := Ideal) x0 x1 x2 y = layer1 h w b i := by
  obtain ⟨p, q, rfl⟩ : ∃ (p : Fin 1000) (q : Fin 256), y = ix2 p q := ⟨y 0, y 1, eq_ix2 y⟩
  rw [pay0_apply]
  subst hx1 hx2
  unfold layer1
  have hlt : (i 0).val < 10000 := (i 0).isLt
  have hi0' : (i 0).val = r + p.val := hi0
  have e0 : (⟨(i 0).val, (i 0).isLt⟩ : Fin 10000) = ⟨r + p.val, by omega⟩ := Fin.ext hi0'
  have e1 : (⟨(i 1).val, (i 1).isLt⟩ : Fin 256) = q := Fin.ext hi1
  rw [e0, e1]
  refine congrArg (fun s => max (s + x2 (ix2 0 q)) 0) ?_
  exact Finset.sum_congr rfl fun k _ => by rw [hx0 p k]

/-- A second-layer block whose rows are rows `r … r + 999` of `y` is those rows of `layer2`. -/
theorem pay1_block (x0 : Vec Ideal S1000x256 .f32) (x1 : Vec Ideal S256x64 .f32) (x2 : Vec Ideal S1x64 .f32)
    (h : S10000x256.Idx → EReal) (w : S256x64.Idx → EReal) (b : S1x64.Idx → EReal) (r : Nat)
    (hx0 : ∀ (p : Fin 1000) (k : Fin 256) (hp : r + p.val < 10000), x0 (ix2 p k) = h (ix2 (⟨r + p.val, hp⟩ : Fin 10000) k))
    (hx1 : x1 = w) (hx2 : x2 = b)
    (y : S1000x64.Idx) (i : S10000x64.Idx) (hi0 : (i 0).val = r + (y 0).val) (hi1 : (i 1).val = (y 1).val) :
    k1_pay1 (F := Ideal) x0 x1 x2 y = layer2 h w b i := by
  obtain ⟨p, q, rfl⟩ : ∃ (p : Fin 1000) (q : Fin 64), y = ix2 p q := ⟨y 0, y 1, eq_ix2 y⟩
  rw [pay1_apply]
  subst hx1 hx2
  unfold layer2
  have hlt : (i 0).val < 10000 := (i 0).isLt
  have hi0' : (i 0).val = r + p.val := hi0
  have e0 : (⟨(i 0).val, (i 0).isLt⟩ : Fin 10000) = ⟨r + p.val, by omega⟩ := Fin.ext hi0'
  have e1 : (⟨(i 1).val, (i 1).isLt⟩ : Fin 64) = q := Fin.ext hi1
  rw [e0, e1]
  refine congrArg (fun s => s + x2 (ix2 0 q)) ?_
  exact Finset.sum_congr rfl fun k _ => by rw [hx0 p k]

end Cert.KernelIdeal.Dense

end
-- ==== Proof.RegionValue.lean ====
/-
  What each kernel region leaves in its result array, as one function of the arrays it finds on entry.

  Each region runs one dense layer over ten row blocks of a thousand rows: at grid point `t` the body reads rows
  `1000 t … 1000 t + 999` of its operand, the whole weight and the whole bias row, and writes the same rows of the
  result.  So what point `t` writes back is block `t` of the layer's whole-array formula (`layer1`, `layer2`),
  the ten blocks tile the result array (row `r` is in block `r / 1000`), and the array ends holding that formula.
  Stated for ANY contents `V` the region may be entered with.
-/
import proofs.«167305_j1382979470185_1_alg».proof.Proof.Gen.KernelIdeal.Frame
import proofs.«167305_j1382979470185_1_alg».proof.Proof.DensePay
import Idealize.ShloMosaic.Lib.Pipeline.Value

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

/-! ## Region 0: the first layer, block by block, is `layer1` of the arrays the region finds -/

/-- The printed index maps, decided over the ten grid points: the row blocks of the operand and of the result move
    with the point, the weight and the bias row stay at block zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The operand's block at point `t` is rows `1000 t … 1000 t + 999` of its array. -/
theorem iblk0_0_apply (c : Dev nD) (t : Fin cfg0.N) (x : S1000x256.Idx) (k : S10000x256.Idx)
    (hk0 : (k 0).val = 1000 * t.val + (x 0).val) (hk1 : (k 1).val = (x 1).val) :
    (iblk0 V c 0 t : Vec Ideal S1000x256 .f32) x = (V c main_v26 : S10000x256.Idx → EReal) k := by
  obtain ⟨e0, e1, -⟩ := idx0 t
  unfold iblk0
  rw [View.read_apply]
  show V c main_v26 _ = V c main_v26 _
  congr 1
  funext a
  apply Fin.ext
  match a with
  | ⟨0, _⟩ => show win0_0.index t 0 * 1000 + 1 * (x 0).val = (k 0).val; rw [e0, hk0]; omega
  | ⟨1, _⟩ => show win0_0.index t 1 * 256 + 1 * (x 1).val = (k 1).val; rw [e1, hk1]; omega

/-- The weight's block is the whole weight at every point. -/
theorem iblk0_1_eq (c : Dev nD) (t : Fin cfg0.N) :
    (iblk0 V c 1 t : Vec Ideal S256x256 .f32) = (V c main_arg1 : S256x256.Idx → EReal) := by
  obtain ⟨-, -, e0, e1, -⟩ := idx0 t
  funext x
  unfold iblk0
  rw [View.read_apply]
  show V c main_arg1 _ = V c main_arg1 x
  congr 1
  funext a
  apply Fin.ext
  match a with
  | ⟨0, _⟩ => show win0_1.index t 0 * 256 + 1 * (x 0).val = (x 0).val; rw [e0]; omega
  | ⟨1, _⟩ => show win0_1.index t 1 * 256 + 1 * (x 1).val = (x 1).val; rw [e1]; omega

/-- The bias row's block is the whole row at every point. -/
theorem iblk0_2_eq (c : Dev nD) (t : Fin cfg0.N) :
    (iblk0 V c 2 t : Vec Ideal S1x256 .f32) = (V c main_v27 : S1x256.Idx → EReal) := by
  obtain ⟨-, -, -, -, e0, e1, -⟩ := idx0 t
  funext x
  unfold iblk0
  rw [View.read_apply]
  show V c main_v27 _ = V c main_v27 x
  congr 1
  funext a
  apply Fin.ext
  match a with
  | ⟨0, _⟩ => show win0_2.index t 0 * 1 + 1 * (x 0).val = (x 0).val; rw [e0]; omega
  | ⟨1, _⟩ => show win0_2.index t 1 * 256 + 1 * (x 1).val = (x 1).val; rw [e1]; omega

/-- What point `t` writes back is block `t` of `layer1`. -/
theorem flushed0_eq (c : Dev nD) (t : Fin cfg0.N) :
    (dat0 V c).flushed 3 t = ((cfg0.win 3).blk t).view.read (Elt Ideal) (layer1 (V c main_v26) (V c main_arg1) (V c main_v27)) := by
  obtain ⟨-, -, -, -, -, -, e0, e1⟩ := idx0 t
  show (cfg0.win 3).cut (grid0.coords t) ((dat0 V c).after 3 t) = _
  rw [after0_3]
  unfold out0_3
  rw [View.canon_unit_zero hz]
  simp only [View.ld_unit_zero (S := S1000x256) hz, View.ld_unit_zero (S := S256x256) hz, View.ld_unit_zero (S := S1x256) hz]
  funext j
  rw [View.read_apply]
  refine pay0_block _ _ _ _ _ _ (1000 * t.val) (fun p k hp => iblk0_0_apply V c t (ix2 p k) _ rfl rfl) (iblk0_1_eq V c t) (iblk0_2_eq V c t) j _ ?_ ?_
  · show win0_3.index t 0 * 1000 + 1 * (j 0).val = 1000 * t.val + (j 0).val; rw [e0]; omega
  · show win0_3.index t 1 * 256 + 1 * (j 1).val = (j 1).val; rw [e1]; omega

/-- An index of the result array is in point `t`'s block iff each coordinate is in the block's range on its axis. -/
theorem mem_blk0 (t : Fin cfg0.N) (i : S10000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v28).slice (win0_3.rect t)).set ↔ _
  rw [View.set_slice_whole, Rect.mem_set_unit]
  exact Iff.rfl

/-- Row `r` of the result is written at point `r / 1000`. -/
theorem cover0 (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 10 := N_0
  have hlt : (i 0).val / 1000 < cfg0.N := by rw [hN]; omega
  obtain ⟨-, -, -, -, -, -, e0, e1⟩ := idx0 ⟨(i 0).val / 1000, hlt⟩
  refine ⟨⟨(i 0).val / 1000, hlt⟩, flush0_3 _, ?_⟩
  rw [mem_blk0]
  intro a
  match a with
  | ⟨0, _⟩ => show win0_3.index ⟨(i 0).val / 1000, hlt⟩ 0 * 1000 ≤ (i 0).val ∧ (i 0).val < win0_3.index ⟨(i 0).val / 1000, hlt⟩ 0 * 1000 + 1000
              rw [e0]; show (i 0).val / 1000 * 1000 ≤ (i 0).val ∧ (i 0).val < (i 0).val / 1000 * 1000 + 1000; omega
  | ⟨1, _⟩ => show win0_3.index ⟨(i 0).val / 1000, hlt⟩ 1 * 256 ≤ (i 1).val ∧ (i 1).val < win0_3.index ⟨(i 0).val / 1000, hlt⟩ 1 * 256 + 256
              rw [e1]; omega

/-- After region 0 its result array holds `layer1` of the operand, the weight and the bias row it was entered with. -/
theorem final0 (c : Dev nD) :
    (dat0 V c).arrAt 3 cfg0.N = layer1 (V c main_v26) (V c main_arg1) (V c main_v27) :=
  (dat0 V c).arrAt_eq_of_cover 3 _ (fun t _ => flushed0_eq V c t) cover0

/-! ## Region 1: the second layer, block by block, is `layer2` of the arrays the region finds -/

/-- The printed index maps of the second region, decided over its ten grid points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The operand's block at point `t` is rows `1000 t … 1000 t + 999` of its array. -/
theorem iblk1_0_apply (c : Dev nD) (t : Fin cfg1.N) (x : S1000x256.Idx) (k : S10000x256.Idx)
    (hk0 : (k 0).val = 1000 * t.val + (x 0).val) (hk1 : (k 1).val = (x 1).val) :
    (iblk1 V c 0 t : Vec Ideal S1000x256 .f32) x = (V c main_v28 : S10000x256.Idx → EReal) k := by
  obtain ⟨e0, e1, -⟩ := idx1 t
  unfold iblk1
  rw [View.read_apply]
  show V c main_v28 _ = V c main_v28 _
  congr 1
  funext a
  apply Fin.ext
  match a with
  | ⟨0, _⟩ => show win1_0.index t 0 * 1000 + 1 * (x 0).val = (k 0).val; rw [e0, hk0]; omega
  | ⟨1, _⟩ => show win1_0.index t 1 * 256 + 1 * (x 1).val = (k 1).val; rw [e1, hk1]; omega

/-- The weight's block is the whole weight at every point. -/
theorem iblk1_1_eq (c : Dev nD) (t : Fin cfg1.N) :
    (iblk1 V c 1 t : Vec Ideal S256x64 .f32) = (V c main_arg3 : S256x64.Idx → EReal) := by
  obtain ⟨-, -, e0, e1, -⟩ := idx1 t
  funext x
  unfold iblk1
  rw [View.read_apply]
  show V c main_arg3 _ = V c main_arg3 x
  congr 1
  funext a
  apply Fin.ext
  match a with
  | ⟨0, _⟩ => show win1_1.index t 0 * 256 + 1 * (x 0).val = (x 0).val; rw [e0]; omega
  | ⟨1, _⟩ => show win1_1.index t 1 * 64 + 1 * (x 1).val = (x 1).val; rw [e1]; omega

/-- The bias row's block is the whole row at every point. -/
theorem iblk1_2_eq (c : Dev nD) (t : Fin cfg1.N) :
    (iblk1 V c 2 t : Vec Ideal S1x64 .f32) = (V c main_v30 : S1x64.Idx → EReal) := by
  obtain ⟨-, -, -, -, e0, e1, -⟩ := idx1 t
  funext x
  unfold iblk1
  rw [View.read_apply]
  show V c main_v30 _ = V c main_v30 x
  congr 1
  funext a
  apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

/-- What point `t` writes back is block `t` of `layer2`. -/
theorem flushed1_eq (c : Dev nD) (t : Fin cfg1.N) :
    (dat1 V c).flushed 3 t = ((cfg1.win 3).blk t).view.read (Elt Ideal) (layer2 (V c main_v28) (V c main_arg3) (V c main_v30)) := by
  obtain ⟨-, -, -, -, -, -, e0, e1⟩ := idx1 t
  show (cfg1.win 3).cut (grid1.coords t) ((dat1 V c).after 3 t) = _
  rw [after1_3]
  unfold out1_3
  rw [View.canon_unit_zero hz]
  simp only [View.ld_unit_zero (S := S1000x256) hz, View.ld_unit_zero (S := S256x64) hz, View.ld_unit_zero (S := S1x64) hz]
  funext j
  rw [View.read_apply]
  refine pay1_block _ _ _ _ _ _ (1000 * t.val) (fun p k hp => iblk1_0_apply V c t (ix2 p k) _ rfl rfl) (iblk1_1_eq V c t) (iblk1_2_eq V c t) j _ ?_ ?_
  · show win1_3.index t 0 * 1000 + 1 * (j 0).val = 1000 * t.val + (j 0).val; rw [e0]; omega
  · show win1_3.index t 1 * 64 + 1 * (j 1).val = (j 1).val; rw [e1]; omega

/-- An index of the result array is in point `t`'s block iff each coordinate is in the block's range on its axis. -/
theorem mem_blk1 (t : Fin cfg1.N) (i : S10000x64.Idx) :
    i ∈ ((cfg1.win 3).blk t).view.set ↔ ∀ a : Fin 2, win1_3.index t a * S1000x64.size a ≤ (i a).val ∧ (i a).val < win1_3.index t a * S1000x64.size a + S1000x64.size a := by
  show i ∈ ((View.whole main_v31).slice (win1_3.rect t)).set ↔ _
  rw [View.set_slice_whole, Rect.mem_set_unit]
  exact Iff.rfl

/-- Row `r` of the result is written at point `r / 1000`. -/
theorem cover1 (i : S10000x64.Idx) : ∃ t : Fin cfg1.N, (cfg1.win 3).flush t = true ∧ i ∈ ((cfg1.win 3).blk t).view.set := by
  have hi0 : (i 0).val < 10000 := (i 0).isLt
  have hi1 : (i 1).val < 64 := (i 1).isLt
  have hN : cfg1.N = 10 := N_1
  have hlt : (i 0).val / 1000 < cfg1.N := by rw [hN]; omega
  obtain ⟨-, -, -, -, -, -, e0, e1⟩ := idx1 ⟨(i 0).val / 1000, hlt⟩
  refine ⟨⟨(i 0).val / 1000, hlt⟩, flush1_3 _, ?_⟩
  rw [mem_blk1]
  intro a
  match a with
  | ⟨0, _⟩ => show win1_3.index ⟨(i 0).val / 1000, hlt⟩ 0 * 1000 ≤ (i 0).val ∧ (i 0).val < win1_3.index ⟨(i 0).val / 1000, hlt⟩ 0 * 1000 + 1000
              rw [e0]; show (i 0).val / 1000 * 1000 ≤ (i 0).val ∧ (i 0).val < (i 0).val / 1000 * 1000 + 1000; omega
  | ⟨1, _⟩ => show win1_3.index ⟨(i 0).val / 1000, hlt⟩ 1 * 64 ≤ (i 1).val ∧ (i 1).val < win1_3.index ⟨(i 0).val / 1000, hlt⟩ 1 * 64 + 64
              rw [e1]; omega

/-- After region 1 its result array holds `layer2` of the operand, the weight and the bias row it was entered with. -/
theorem final1 (c : Dev nD) :
    (dat1 V c).arrAt 3 cfg1.N = layer2 (V c main_v28) (V c main_arg3) (V c main_v30) :=
  (dat1 V c).arrAt_eq_of_cover 3 _ (fun t _ => flushed1_eq V c t) cover1

end Cert.KernelIdeal.Dense

end
-- ==== Proof.DenseRef.lean ====
/-
  The reference's two dense layers are `layer2 ∘ layer1`.

  On the host the first layer is `dot_general` of the aggregated features with `W1`, plus the bias broadcast over
  the rows, clamped below at zero; the second is `dot_general` of that with `W2`.  Read at an index each
  `dot_general` is the sum over the shared axis, so row by row they are `layer1` and `layer2` — the second with a
  bias row of zeros, and adding zero changes no extended real.
-/
import proofs.«167305_j1382979470185_1_alg».proof.Proof.DensePay
import proofs.«167305_j1382979470185_1_alg».proof.Proof.Gen.ReferenceIdeal.Read

noncomputable section

namespace Cert.ReferenceIdeal.DenseRef

open Cert.ReferenceIdeal Cert.ReferenceIdeal.Gen Cert.ReferenceIdeal.Read Idealize.ShloMosaic Idealize.ShloMosaic.ValueIdx

/-- The host's first layer, clamp included, read at an index is `layer1` of the aggregated features, the weight and
    any [1,256] row that holds the bias. -/
theorem layer1_ref (x0 : (⟨S10000x256, .f32⟩ : BufTy).Contents (Elt Ideal)) (x1 : (⟨S256x256, .f32⟩ : BufTy).Contents (Elt Ideal))
    (x2 : (⟨S256, .f32⟩ : BufTy).Contents (Elt Ideal)) (x5 x6 : (⟨S320000, .i32⟩ : BufTy).Contents (Elt Ideal))
    (b1 : S1x256.Idx → EReal) (hb1 : ∀ q : Fin 256, b1 (ix2 (0 : Fin 1) q) = x2 (ix1 q)) (j : S10000x256.Idx) :
    Cert.KernelIdeal.Dense.layer1 (val_main_v26 (F := Ideal) x0 x5 x6) x1 b1 j = val_main_v31 (F := Ideal) x0 x1 x2 x5 x6 j := by
  rw [val_main_v31_apply, val_main_v30_apply, val_main_v27_apply, val_main_v29_apply, val_main_v28_apply,
    val_main_call2_v0_apply, val_main_call2_cst_apply]
  unfold Cert.KernelIdeal.Dense.layer1
  generalize val_main_v26 (F := Ideal) x0 x5 x6 = h
  rw [hb1, Ideal.maximumf_def, Ideal.addf_def, Ideal.ofBits_def, Ideal.ofBits_zero_f32]
  have e2 : idx_main_v28 (idx_main_v29 j) = ix1 (⟨(j 1).val, (j 1).isLt⟩ : Fin 256) := funext fun a => by
    match a with
    | ⟨0, _⟩ => rfl
  rw [e2]
  refine congrArg (fun s => max (s + x2 (ix1 (⟨(j 1).val, (j 1).isLt⟩ : Fin 256))) 0) ?_
  refine Finset.sum_congr rfl fun k _ => ?_
  have el : lidx_main_v27 j k = ix2 (⟨(j 0).val, (j 0).isLt⟩ : Fin 10000) k := funext fun a => by
    match a with
    | ⟨0, _⟩ => rfl
    | ⟨1, _⟩ => rfl
  have er : ridx_main_v27 j k = ix2 k (⟨(j 1).val, (j 1).isLt⟩ : Fin 256) := funext fun a => by
    match a with
    | ⟨0, _⟩ => rfl
    | ⟨1, _⟩ => rfl
  rw [el, er]

/-- The host's two layers are `layer2` (bias row zero) of `layer1`. -/
theorem layers_ref (x0 : (⟨S10000x256, .f32⟩ : BufTy).Contents (Elt Ideal)) (x1 : (⟨S256x256, .f32⟩ : BufTy).Contents (Elt Ideal))
    (x2 : (⟨S256, .f32⟩ : BufTy).Contents (Elt Ideal)) (x3 : (⟨S256x64, .f32⟩ : BufTy).Contents (Elt Ideal))
    (x5 x6 : (⟨S320000, .i32⟩ : BufTy).Contents (Elt Ideal))
    (b1 : S1x256.Idx → EReal) (hb1 : ∀ q : Fin 256, b1 (ix2 (0 : Fin 1) q) = x2 (ix1 q))
    (b2 : S1x64.Idx → EReal) (hb2 : ∀ q : Fin 64, b2 (ix2 (0 : Fin 1) q) = 0) :
    Cert.KernelIdeal.Dense.layer2 (Cert.KernelIdeal.Dense.layer1 (val_main_v26 (F := Ideal) x0 x5 x6) x1 b1) x3 b2
      = val_main_v32 (F := Ideal) x0 x1 x2 x3 x5 x6 := by
  funext i
  rw [val_main_v32_apply]
  unfold Cert.KernelIdeal.Dense.layer2
  rw [hb2, add_zero]
  refine Finset.sum_congr rfl fun k _ => ?_
  have el : lidx_main_v32 i k = ix2 (⟨(i 0).val, (i 0).isLt⟩ : Fin 10000) k := funext fun a => by
    match a with
    | ⟨0, _⟩ => rfl
    | ⟨1, _⟩ => rfl
  have er : ridx_main_v32 i k = ix2 k (⟨(i 1).val, (i 1).isLt⟩ : Fin 64) := funext fun a => by
    match a with
    | ⟨0, _⟩ => rfl
    | ⟨1, _⟩ => rfl
  rw [el, er, layer1_ref x0 x1 x2 x5 x6 b1 hb1]

end Cert.ReferenceIdeal.DenseRef

end
-- ==== Proof.KernelValue.lean ====
/-
  The kernel program's result array is the reference's result stage of the launch arrays.

  Region 0 is entered with the aggregated features, `W1` and the bias `b1` as a [1,256] row, and leaves `layer1`
  of them; region 1 is entered with that, `W2` and a [1,64] row of zeros, and leaves `layer2`: together the
  reference's two dense layers.  The closing stretch of host operations is the reference's own, applied to the same
  values.
-/
import proofs.«167305_j1382979470185_1_alg».proof.Proof.HostWalk
import proofs.«167305_j1382979470185_1_alg».proof.Proof.RegionValue
import proofs.«167305_j1382979470185_1_alg».proof.Proof.DenseRef

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo
open Idealize.ShloMosaic.ValueIdx
open Cert.KernelIdeal.Dense (layer1 layer2)

variable (m : (ℓ : Loc nD τ sig) → Buf (Elt Ideal) ℓ) (ρ : Dev nD → PrngReg) (c : Dev nD)

/-- Region 0 leaves the first layer of the aggregated features. -/
theorem W6_v28 : W6 m ρ c (Proc.devRef .tc main_v28)
    = layer1 (Cert.ReferenceIdeal.Read.val_main_v26 (F := Ideal) (m ((c.tc : Thread nD τ).loc main_arg0)) (m ((c.tc : Thread nD τ).loc main_arg5)) (m ((c.tc : Thread nD τ).loc main_arg6))) (m ((c.tc : Thread nD τ).loc main_arg1)) (W5 m ρ c (Proc.devRef .tc main_v27)) := by
  refine (W6_arr m ρ c 3).trans ((Dense.final0 (V5 m ρ) c).trans ?_)
  show layer1 (W5 m ρ c (Proc.devRef .tc main_v26)) (W5 m ρ c (Proc.devRef .tc main_arg1)) (W5 m ρ c (Proc.devRef .tc main_v27)) = _
  rw [W5_v26, W5_launch m ρ c (r := main_arg1) (by decide) (by decide) (by decide) (by decide) (by decide)]

theorem W7_v28 : W7 m ρ c (Proc.devRef .tc main_v28)
    = layer1 (Cert.ReferenceIdeal.Read.val_main_v26 (F := Ideal) (m ((c.tc : Thread nD τ).loc main_arg0)) (m ((c.tc : Thread nD τ).loc main_arg5)) (m ((c.tc : Thread nD τ).loc main_arg6))) (m ((c.tc : Thread nD τ).loc main_arg1)) (W5 m ρ c (Proc.devRef .tc main_v27)) :=
  (keep1 m ρ c (by decide)).trans (W6_v28 m ρ c)

theorem W7_arg3 : W7 m ρ c (Proc.devRef .tc main_arg3) = (m ((c.tc : Thread nD τ).loc main_arg3)) :=
  (keep1 m ρ c (by decide)).trans ((W6_of_ne m ρ c main_arg3 (by decide)).trans
    (W5_launch m ρ c (by decide) (by decide) (by decide) (by decide) (by decide)))

/-- Region 1 leaves the reference's second `dot_general`. -/
theorem W8_v31 : W8 m ρ c (Proc.devRef .tc main_v31) = Cert.ReferenceIdeal.Read.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := by
  refine (W8_arr m ρ c 3).trans ((Dense.final1 (V7 m ρ) c).trans ?_)
  show layer2 (W7 m ρ c (Proc.devRef .tc main_v28)) (W7 m ρ c (Proc.devRef .tc main_arg3)) (W7 m ρ c (Proc.devRef .tc main_v30)) = _
  rw [W7_v28, W7_arg3]
  exact Cert.ReferenceIdeal.DenseRef.layers_ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) _ (W5_v27_apply m ρ c) _ (st1_v30 (W6 m ρ c))

/-- A buffer neither region holds as an array and the stretch between them does not write is, after region 1, what it
    was when region 0 was entered. -/
theorem W8_keep {r : Ref sig .tc} (h8 : ∀ w, Pipeline.arrRef spec1 w ≠ r) (h1 : r ∉ wr1) (h6 : ∀ w, Pipeline.arrRef spec0 w ≠ r) :
    W8 m ρ c (Proc.devRef .tc r) = W5 m ρ c (Proc.devRef .tc r) :=
  (W8_of_ne m ρ c r h8).trans ((keep1 m ρ c h1).trans (W6_of_ne m ρ c r h6))

/-- THE RESULT: the closing stretch applied to region 1's result, the normalisers and the launch arrays is the
    reference's result stage. -/
theorem value : W9 m ρ c (Proc.devRef .tc main_v50)
    = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  st2_v50 (W8 m ρ c) _ _ _ _ _ _ _ (W8_v31 m ρ c)
    ((W8_keep m ρ c (by decide) (by decide) (by decide)).trans (W5_v8 m ρ c))
    ((W8_keep m ρ c (by decide) (by decide) (by decide)).trans (W5_v10 m ρ c))
    ((W8_keep m ρ c (by decide) (by decide) (by decide)).trans (W5_launch m ρ c (by decide) (by decide) (by decide) (by decide) (by decide)))
    ((W8_keep m ρ c (by decide) (by decide) (by decide)).trans (W5_launch m ρ c (by decide) (by decide) (by decide) (by decide) (by decide)))
    ((W8_keep m ρ c (by decide) (by decide) (by decide)).trans (W5_launch m ρ c (by decide) (by decide) (by decide) (by decide) (by decide)))

end Cert.KernelIdeal.Walk

end
-- ==== Proof.lean ====
/-
  A two-layer graph convolution against its jnp reference, equal over the extended reals.

  Both programs compute, for node features `x`, edges `src → dst`, and the degree normalisers
  `ns = rsqrt (max 1 outdeg)`, `nd = rsqrt (max 1 indeg)`,

      h  = nd · Σ_{edges into a node} (ns · x)[src]              (aggregate first: W1 is square)
      y  = max (h · W1 + b1) 0
      z  = y · W2                                                 (weight first: W2 narrows 256 → 64)
      out = nd · Σ_{edges into a node} (ns · z)[src] + b2 .

  The reference does all of it with host operations.  The kernel program does the aggregations with the SAME host
  operations and the two dense layers in kernel regions: ten row blocks of a thousand rows each, every block the
  whole-array formula restricted to its rows; the second region adds a bias row of zeros, which changes no extended
  real; rounding the operands to bf16 before the products is the identity at this instance.  No law that needs
  finiteness is used: the two sides are the same sums of the same products, entry by entry.

  The three frames: the two kernel programs' are the generated ones; the reference's is its generated run with the
  result dropped.  No operation was rewritten by the idealization, so there is nothing to preserve.
-/
import proofs.«167305_j1382979470185_1_alg».proof.Defs
import proofs.«167305_j1382979470185_1_alg».proof.Proof.Gen.Kernel
import proofs.«167305_j1382979470185_1_alg».proof.Proof.Gen.Kernel.Frame
import proofs.«167305_j1382979470185_1_alg».proof.Proof.Gen.KernelIdeal
import proofs.«167305_j1382979470185_1_alg».proof.Proof.Gen.KernelIdeal.Frame
import proofs.«167305_j1382979470185_1_alg».proof.Proof.Gen.ReferenceIdeal
import proofs.«167305_j1382979470185_1_alg».proof.Proof.Gen.Pre_finite_inputs
import proofs.«167305_j1382979470185_1_alg».proof.Proof.Gen.ReferenceIdeal.Run
import proofs.«167305_j1382979470185_1_alg».proof.Proof.Gen.ReferenceIdeal.Read
import proofs.«167305_j1382979470185_1_alg».proof.Proof.KernelRun
import proofs.«167305_j1382979470185_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the (agreeing) argument arrays. -/
theorem algebraic : Cert.algebraic_KernelIdeal_ReferenceIdeal := by
  intro m ρ m' ρ' _ hagree
  refine ⟨fun c => Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Walk.value m ρ c), (h c).2⟩) (Cert.KernelIdeal.Named.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v51_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
